-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S32x64 : Shape := ⟨2, ![32, 64]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S32x64 .f32) (main_arg6 : FVec F S64 .f32) (main_arg7 : FVec F S128x128 .f32) (main_arg8 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x32 .f32) (main_arg3 : FVec F S64x64 .f32) (main_arg4 : FVec F S64 .f32) (main_arg5 : FVec F S32x64 .f32) (main_arg6 : FVec F S64 .f32) (main_arg7 : FVec F S128x128 .f32) (main_arg8 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S32x64 : Shape := ⟨2, ![32, 64]⟩
abbrev S128x128 : Shape := ⟨2, ![128, 128]⟩
abbrev S128 : Shape := ⟨1, ![128]⟩
abbrev S10000x64 : Shape := ⟨2, ![10000, 64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S1600000x128 : Shape := ⟨2, ![1600000, 128]⟩
abbrev S8000x32 : Shape := ⟨2, ![8000, 32]⟩
abbrev S8000x64 : Shape := ⟨2, ![8000, 64]⟩
abbrev S8000x128 : Shape := ⟨2, ![8000, 128]⟩
abbrev S1x128 : Shape := ⟨2, ![1, 128]⟩
abbrev S100000x128 : Shape := ⟨2, ![100000, 128]⟩

abbrev nBuf : Space → Nat
  | .hbm => 31
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S100000x64, .bf16⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .bf16⟩
  | .hbm, ⟨23, _⟩ => ⟨S64x128, .f32⟩
  | .hbm, ⟨24, _⟩ => ⟨S64x128, .f32⟩
  | .hbm, ⟨25, _⟩ => ⟨S1600000x128, .bf16⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .bf16⟩
  | .local _ .vmem, ⟨5, _⟩ => ⟨S10000x64, .bf16⟩
  | .local _ .vmem, ⟨6, _⟩ => ⟨S8000x32, .f32⟩
  | .local _ .vmem, ⟨7, _⟩ => ⟨S8000x32, .f32⟩
  | .local _ .vmem, ⟨8, _⟩ => ⟨S8000x64, .bf16⟩
  | .local _ .vmem, ⟨9, _⟩ => ⟨S8000x64, .bf16⟩
  | .local _ .vmem, ⟨10, _⟩ => ⟨S32x64, .f32⟩
  | .local _ .vmem, ⟨11, _⟩ => ⟨S64, .f32⟩
  | .local _ .vmem, ⟨12, _⟩ => ⟨S64x128, .f32⟩
  | .local _ .vmem, ⟨13, _⟩ => ⟨S64x128, .f32⟩
  | .local _ .vmem, ⟨14, _⟩ => ⟨S128, .f32⟩
  | .local _ .vmem, ⟨15, _⟩ => ⟨S8000x128, .bf16⟩
  | .local _ .vmem, ⟨16, _⟩ => ⟨S8000x128, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x128_S64x128_0_0 : S128x128.Slices ![0, 0] S64x128
  slices_S128x128_S64x128_64_0 : S128x128.Slices ![64, 0] S64x128
  inb_S8000x32_S8000x32_0_0 : ∀ a, (![0, 0] : Fin 2 → Nat) a + S8000x32.size a ≤ S8000x32.size a
  h_S8000x32 : 0 < S8000x32.numel
  inb_S32x64_S32x64_0_0 : ∀ a, (![0, 0] : Fin 2 → Nat) a + S32x64.size a ≤ S32x64.size a
  h_S32x64 : 0 < S32x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S100000x128 : S_.BroadcastsInDim S100000x128 (![] : Fin 0 → Fin S100000x128.rank)
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S8000x32_S32x64_S8000x64_1_0_0_1_n_n_wf : DotDims.WF S8000x32 S32x64 S8000x64 [1] [0] [0] [1] [] []
  dot_S8000x64_S64x128_S8000x128_1_0_0_1_n_n_wf : DotDims.WF S8000x64 S64x128 S8000x128 [1] [0] [0] [1] [] []
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1600000x64.size a
  hwx1_1 : ∀ i : grid1.Coords, EltTy.bits .bf16 = 32 ∨ (Rect.block (s := S1600000x64) S8000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x128.size a ≤ S1600000x128.size a
  hwx1_7 : ∀ i : grid1.Coords, EltTy.bits .bf16 = 32 ∨ (Rect.block (s := S1600000x128) S8000x128.size (cc1_transform_7 i) (hinb1_7 i)).WholeWords (EltTy.packing .bf16)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S8000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S32x64 : Shape := ⟨2, ![32, 64]⟩
abbrev S128x128 : Shape := ⟨2, ![128, 128]⟩
abbrev S128 : Shape := ⟨1, ![128]⟩
abbrev S1x64 : Shape := ⟨2, ![1, 64]⟩
abbrev S_ : Shape := ⟨0, ![]⟩
abbrev S1600000x64 : Shape := ⟨2, ![1600000, 64]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩
abbrev S100000x128 : Shape := ⟨2, ![100000, 128]⟩

abbrev nBuf : Space → Nat
  | .hbm => 60
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S100000x64, .f32⟩
  | .hbm, ⟨10, _⟩ => ⟨S1x64, .f32⟩
  | .hbm, ⟨11, _⟩ => ⟨S100000x64, .f32⟩
  | .hbm, ⟨12, _⟩ => ⟨S100000x64, .f32⟩
  | .hbm, ⟨13, _⟩ => ⟨S_, .f32⟩
  | .hbm, ⟨14, _⟩ => ⟨S100000x64, .f32⟩
  | .hbm, ⟨15, _⟩ => ⟨S100000x64, .i1⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S1600000x64, .f32⟩
  | .hbm, ⟨21, _⟩ => ⟨S1x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S1600000x64, .f32⟩
  | .hbm, ⟨26, _⟩ => ⟨S1600000x64, .i1⟩
  | .hbm, ⟨27, _⟩ => ⟨S_, .f32⟩
  | .hbm, ⟨28, _⟩ => ⟨S1600000x64, .f32⟩
  | .hbm, ⟨29, _⟩ => ⟨S1600000x64, .f32⟩
  | .hbm, ⟨30, _⟩ => ⟨S1600000x64, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x128, .f32⟩
  | .hbm, ⟨45, _⟩ => ⟨S1600000x128, .f32⟩
  | .hbm, ⟨46, _⟩ => ⟨S1x128, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S1600000x128, .f32⟩
  | .hbm, ⟨51, _⟩ => ⟨S1600000x128, .i1⟩
  | .hbm, ⟨52, _⟩ => ⟨S_, .f32⟩
  | .hbm, ⟨53, _⟩ => ⟨S1600000x128, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  dot_S100000x64_S64x64_S100000x64_1_0_0_1_n_n_wf : DotDims.WF S100000x64 S64x64 S100000x64 [1] [0] [0] [1] [] []
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel program's run with its result named.

  @main is four stretches in order: the node-encoder call, fifteen host operations (the two index rows cut out
  of the edge list, the source indices wrapped into range, the gather of encoded nodes, the two halves of the
  message weights), the message call, and five host operations ending in the scatter-add. Running the stretches
  one after the other from the launch memory leaves every buffer that outlives a call at the contents obtained by
  folding the stretches over the launch memory; here that fact is stated for the result buffer as well as for the
  nine argument buffers (which no stretch writes).
-/
import proofs.«100788_j47674136986069_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the fold of the four
    stretches over the launch memory, read at the result (`W4`), and every argument buffer ends as launched. -/
theorem run_result : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.Spec.lean ====
/-
  The mathematics of the message-passing layer, over extended reals and independent of either program.

  A dense layer with a leaky rectifier sends a matrix `x` (rows = items), a weight matrix `w` and a bias `b`
  to `leaky (Σ_j x[p, j] · w[j, q] + b[q])`. The message of an edge is the leaky rectifier of the sum of two
  such contractions (the encoded edge attributes against the upper 64 rows of the message weights, the gathered
  node encodings against the lower 64 rows) plus a bias. The one law needed between the two programs is that
  these two contractions over 64 indices are ONE contraction over 128 indices of the two matrices laid side by
  side against the whole weight matrix: a sum over `Fin (64 + 64)` split at 64. It is a statement about a
  commutative additive monoid, so it holds on the extended reals with no finiteness assumption.
-/
import Idealize.ShloMosaic.PureOps.Ideal
import Idealize.ShloMosaic.Lib.ValueIdx
import Mathlib.Algebra.BigOperators.Fin

noncomputable section

namespace Cert.Gnn

open Idealize.ShloMosaic Idealize.ShloMosaic.ValueIdx

/-- A matrix of extended reals with `n` rows and `k` columns, as the programs index it. -/
abbrev Mat (n k : Nat) : Type := (⟨2, ![n, k]⟩ : Shape).Idx → EReal
/-- A vector of extended reals of length `n`. -/
abbrev Vct (n : Nat) : Type := (⟨1, ![n]⟩ : Shape).Idx → EReal

/-- The matrix whose entry at row `p`, column `q` is `f p q`. -/
def mk2 {n k : Nat} (f : Fin n → Fin k → EReal) : Mat n k :=
  fun i => f ⟨(i 0).val, (i 0).isLt⟩ ⟨(i 1).val, (i 1).isLt⟩

theorem mk2_ix2 {n k : Nat} (f : Fin n → Fin k → EReal) (p : Fin n) (q : Fin k) : mk2 f (ix2 p q) = f p q := rfl

theorem mk2_apply {n k : Nat} (f : Fin n → Fin k → EReal) (i : (⟨2, ![n, k]⟩ : Shape).Idx) :
    mk2 f i = f ⟨(i 0).val, (i 0).isLt⟩ ⟨(i 1).val, (i 1).isLt⟩ := rfl

/-- The leaky rectifier as both programs spell it: `z` where `z ≥ 0`, else `slope · z`, the slope the binary32
    number nearest one hundredth and the comparison the ordered one against the binary32 zero. -/
def leaky (z : EReal) : EReal :=
  Scalar.select (FloatOps.cmpf (F := Ideal) .oge z (Ideal.ofBits .f32 0x00000000#32)) z
    (Ideal.ofBits .f32 0x3C23D70A#32 * z)

/-- One entry of a dense layer: `leaky (Σ_j x[p, j] · w[j, q] + b[q])`. -/
def denseAt {n k m : Nat} (x : Mat n k) (w : Mat k m) (b : Vct m) (p : Fin n) (q : Fin m) : EReal :=
  leaky ((∑ j : Fin k, x (ix2 p j) * w (ix2 j q)) + b (ix1 q))

/-- The dense layer as a matrix. -/
def dense {n k m : Nat} (x : Mat n k) (w : Mat k m) (b : Vct m) : Mat n m := mk2 (denseAt x w b)

/-- A dense layer's entry only reads row `p` of `x`. -/
theorem denseAt_congr {n n' k m : Nat} (x : Mat n k) (x' : Mat n' k) (w : Mat k m) (b : Vct m) (p : Fin n) (p' : Fin n')
    (q : Fin m) (h : ∀ j : Fin k, x (ix2 p j) = x' (ix2 p' j)) : denseAt x w b p q = denseAt x' w b p' q := by
  unfold denseAt
  exact congrArg (fun s => leaky (s + b (ix1 q))) (Finset.sum_congr rfl fun j _ => by rw [h j])

/-- One entry of the message layer with the weights given in two halves:
    `leaky (Σ_k e[p, k] · w1[k, q] + Σ_k g[p, k] · w2[k, q] + b[q])`. -/
def msgAt {n : Nat} (e g : Mat n 64) (w1 w2 : Mat 64 128) (b : Vct 128) (p : Fin n) (q : Fin 128) : EReal :=
  leaky (((∑ k : Fin 64, e (ix2 p k) * w1 (ix2 k q)) + (∑ k : Fin 64, g (ix2 p k) * w2 (ix2 k q))) + b (ix1 q))

/-- A message entry only reads row `p` of the two feature matrices. -/
theorem msgAt_congr {n n' : Nat} (e g : Mat n 64) (e' g' : Mat n' 64) (w1 w2 : Mat 64 128) (b : Vct 128) (p : Fin n)
    (p' : Fin n') (q : Fin 128) (he : ∀ k : Fin 64, e (ix2 p k) = e' (ix2 p' k))
    (hg : ∀ k : Fin 64, g (ix2 p k) = g' (ix2 p' k)) : msgAt e g w1 w2 b p q = msgAt e' g' w1 w2 b p' q := by
  unfold msgAt
  have h1 : (∑ k : Fin 64, e (ix2 p k) * w1 (ix2 k q)) = ∑ k : Fin 64, e' (ix2 p' k) * w1 (ix2 k q) :=
    Finset.sum_congr rfl fun k _ => by rw [he k]
  have h2 : (∑ k : Fin 64, g (ix2 p k) * w2 (ix2 k q)) = ∑ k : Fin 64, g' (ix2 p' k) * w2 (ix2 k q) :=
    Finset.sum_congr rfl fun k _ => by rw [hg k]
  rw [h1, h2]

/-- The two feature matrices laid side by side: columns 0–63 from `e`, columns 64–127 from `g`. -/
def sideBySide {n : Nat} (e g : Mat n 64) : Mat n 128 :=
  mk2 fun p k => if h : k.val < 64 then e (ix2 p ⟨k.val, h⟩) else g (ix2 p ⟨k.val - 64, by have := k.isLt; omega⟩)

/-- The upper 64 rows of a 128-row matrix. -/
def upper (w : Mat 128 128) : Mat 64 128 := mk2 fun k q => w (ix2 ⟨k.val, by have := k.isLt; omega⟩ q)
/-- The lower 64 rows of a 128-row matrix. -/
def lower (w : Mat 128 128) : Mat 64 128 := mk2 fun k q => w (ix2 ⟨64 + k.val, by have := k.isLt; omega⟩ q)

/-- One entry of the message layer with the features side by side against the whole weight matrix:
    `leaky (Σ_{k < 128} [e | g][p, k] · w[k, q] + b[q])`. -/
def msgCatAt {n : Nat} (c : Mat n 128) (w : Mat 128 128) (b : Vct 128) (p : Fin n) (q : Fin 128) : EReal :=
  leaky ((∑ k : Fin 128, c (ix2 p k) * w (ix2 k q)) + b (ix1 q))

/-- THE LAW: the contraction over 128 side-by-side columns is the sum of the two contractions over 64 columns each,
    the weights cut into their upper and lower rows. A sum over `Fin (64 + 64)` split at 64; no finiteness is used. -/
theorem sum_sideBySide {n : Nat} (e g : Mat n 64) (w : Mat 128 128) (p : Fin n) (q : Fin 128) :
    (∑ k : Fin 128, sideBySide e g (ix2 p k) * w (ix2 k q))
      = (∑ k : Fin 64, e (ix2 p k) * upper w (ix2 k q)) + (∑ k : Fin 64, g (ix2 p k) * lower w (ix2 k q)) := by
  rw [show (∑ k : Fin 128, sideBySide e g (ix2 p k) * w (ix2 k q))
      = ∑ k : Fin (64 + 64), sideBySide e g (ix2 p k) * w (ix2 k q) from rfl, Fin.sum_univ_add]
  refine congrArg₂ (· + ·) ?_ ?_
  · refine Finset.sum_congr rfl fun k _ => ?_
    have hk : (Fin.castAdd 64 k).val < 64 := k.isLt
    show (if h : (Fin.castAdd 64 k).val < 64 then e (ix2 p ⟨(Fin.castAdd 64 k).val, h⟩) else _) * _ = _
    rw [dif_pos hk]
    rfl
  · refine Finset.sum_congr rfl fun k _ => ?_
    have hk : ¬ (Fin.natAdd 64 k).val < 64 := by show ¬ (64 + k.val < 64); omega
    show (if h : (Fin.natAdd 64 k).val < 64 then _ else g (ix2 p ⟨(Fin.natAdd 64 k).val - 64, _⟩)) * _ = _
    rw [dif_neg hk]
    have e1 : (⟨(Fin.natAdd 64 k).val - 64, by have := k.isLt; show 64 + k.val - 64 < 64; omega⟩ : Fin 64) = k :=
      Fin.ext (by show 64 + k.val - 64 = k.val; omega)
    rw [e1]
    rfl

/-- So the two spellings of a message entry agree. -/
theorem msgCatAt_sideBySide {n : Nat} (e g : Mat n 64) (w : Mat 128 128) (b : Vct 128) (p : Fin n) (q : Fin 128) :
    msgCatAt (sideBySide e g) w b p q = msgAt e g (upper w) (lower w) b p q := by
  unfold msgCatAt msgAt
  rw [sum_sideBySide]

end Cert.Gnn

end
-- ==== Proof.NodeValue.lean ====
/-
  The node-encoder call's output array as one function of the arrays it reads.

  The call runs ten grid points; point `t` reads rows `10000 t … 10000 t + 9999` of the node features, the whole
  64 × 64 weight matrix and the whole bias, and writes the same rows of the output. One block's result is the
  dense layer of the block (a matrix product into a zero accumulator, the bias broadcast over the rows, the leaky
  rectifier), and a dense layer's row only reads the same row of its input, so each block written is the
  corresponding block of the dense layer of the WHOLE feature array. The ten row blocks cover the array: row `r`
  lies in the block of point `r / 10000`.
-/
import proofs.«100788_j47674136986069_2_alg».proof.Proof.Gen.KernelIdeal.Frame
import proofs.«100788_j47674136986069_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Idealize.ShloMosaic Idealize.ShloMosaic.TcCoe Idealize.SL.Sem
open Idealize.ShloMosaic.ValueIdx Cert.Gnn
open Idealize.ShloMosaic.Pipeline (Dat)

/-! ## One block -/

theorem nodeProduct_l0 (i : S10000x64.Idx) (r : dot_S10000x64_S64x64_S10000x64_1_0_0_1_n_n.contr.Idx) : (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem nodeProduct_r1 (i : S10000x64.Idx) (r : dot_S10000x64_S64x64_S10000x64_1_0_0_1_n_n.contr.Idx) : (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl
/-- The block product into a zero accumulator, at row `p` and column `q`: the sum over the 64 contracted indices. -/
theorem nodeProduct (a : FVec Ideal S10000x64 .bf16) (b : FVec Ideal S64x64 .bf16) (p : Fin 10000) (q : Fin 64) :
    (matmul dot_S10000x64_S64x64_S10000x64_1_0_0_1_n_n none a b (constant S10000x64 .f32 0x00000000#32) : FVec Ideal S10000x64 .f32) (ix2 p q)
      = ∑ j : Fin 64, a (ix2 p j) * b (ix2 j q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact nodeProduct_l0 _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl _ _).trans hk
    | ⟨1, _⟩ => exact nodeProduct_r1 _ _)
  rw [el, er]

/-- The bias, cast to one row and broadcast over the block's rows, read at row `p`, column `q`. -/
theorem nodeBias (b : FVec Ideal S64 .f32) (p : Fin 10000) (q : Fin 64) :
    (broadcastTo S10000x64 (shapeCast S1x64 b shapeCasts_S64_S1x64) broadcasts_S1x64_S10000x64 : FVec Ideal S10000x64 .f32) (ix2 p q)
      = b (ix1 q) :=
  (broadcastTo_1b_ab_apply _ broadcasts_S1x64_S10000x64 p q).trans (shapeCast_a_1a_apply b shapeCasts_S64_S1x64 _ q)

/-- What the body stores, from the three blocks it loads: the dense layer of the block. -/
theorem payload_eq (x0 : FVec Ideal S10000x64 .f32) (x1 : FVec Ideal S64x64 .f32) (x2 : FVec Ideal S64 .f32) :
    k0_pay1 (F := Ideal) x0 x1 x2 = dense (n := 10000) (k := 64) (m := 64) x0 x1 x2 := by
  funext j
  obtain ⟨p, q, rfl⟩ : ∃ (p : Fin 10000) (q : Fin 64), j = ix2 p q := ⟨j 0, j 1, eq_ix2 j⟩
  show leaky ((matmul dot_S10000x64_S64x64_S10000x64_1_0_0_1_n_n none (truncf .bf16 x0 bitsLt_bf16_f32)
      (truncf .bf16 x1 bitsLt_bf16_f32) (constant S10000x64 .f32 0x00000000#32) : FVec Ideal S10000x64 .f32) (ix2 p q)
    + (broadcastTo S10000x64 (shapeCast S1x64 x2 shapeCasts_S64_S1x64) broadcasts_S1x64_S10000x64 : FVec Ideal S10000x64 .f32) (ix2 p q))
    = leaky ((∑ j : Fin 64, x0 (ix2 p j) * x1 (ix2 j q)) + x2 (ix1 q))
  rw [nodeProduct, nodeBias]
  rfl

/-! ## From blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps, decided over the ten grid points: the feature window and the output window are at row
    block `t`, column block 0; the weights and the bias stay at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A dense layer's entry depends on its input only through the entry's row, on the weights and the bias. -/
theorem dense_congr {n n' k m : Nat} (x : Mat n k) (x' : Mat n' k) (w w' : Mat k m) (b b' : Vct m)
    (i : (⟨2, ![n, m]⟩ : Shape).Idx) (i' : (⟨2, ![n', m]⟩ : Shape).Idx) (hcol : (i 1).val = (i' 1).val)
    (hx : ∀ j : Fin k, x (ix2 ⟨(i 0).val, (i 0).isLt⟩ j) = x' (ix2 ⟨(i' 0).val, (i' 0).isLt⟩ j)) (hw : w = w') (hb : b = b') :
    dense x w b i = dense x' w' b' i' := by
  subst hw hb
  show denseAt x w b ⟨(i 0).val, (i 0).isLt⟩ ⟨(i 1).val, (i 1).isLt⟩ = denseAt x' w b ⟨(i' 0).val, (i' 0).isLt⟩ ⟨(i' 1).val, (i' 1).isLt⟩
  have hq : (⟨(i 1).val, (i 1).isLt⟩ : Fin m) = ⟨(i' 1).val, (i' 1).isLt⟩ := Fin.ext hcol
  rw [hq]
  exact denseAt_congr x x' w b _ _ _ hx

/-- WHAT POINT `t` WRITES BACK is block `t` of the dense layer of the whole arrays as the call finds them. -/
theorem flushed_eq (c : Dev nD) (t : Fin cfg0.N) :
    (dat0 V c).flushed 3 t = ((cfg0.win 3).blk t).view.read (Elt Ideal)
      (dense (n := 100000) (k := 64) (m := 64) (V c main_arg0) (V c main_arg3) (V c main_arg4)) := by
  show (cfg0.win 3).cut (grid0.coords t) ((dat0 V c).after 3 t) = _
  rw [after0_3]
  unfold out0_3
  rw [View.canon_unit_zero zero2]
  simp only [View.ld_unit_zero (S := S10000x64) zero2, View.ld_unit_zero (S := S64x64) zero2, View.ld_unit_zero (S := S64) zero1]
  rw [payload_eq]
  obtain ⟨e00, e01, e10, e11, e20, e30, e31⟩ := index_facts t
  funext j
  refine dense_congr (n := 10000) (n' := 100000) _ _ _ _ _ _ j (((cfg0.win 3).blk t).view.emb j) ?_ ?_ ?_ ?_
  · show (j 1).val = win0_3.index t (1 : Fin 2) * 64 + 1 * (j 1).val
    omega
  · intro k
    show V c main_arg0 (((cfg0.win 0).blk t).view.emb (ix2 ⟨(j 0).val, (j 0).isLt⟩ k)) = V c main_arg0 _
    refine congrArg (V c main_arg0) (funext fun a => Fin.ext ?_)
    match a with
    | ⟨0, _⟩ =>
      show win0_0.index t (0 : Fin 2) * 10000 + 1 * (j 0).val = win0_3.index t (0 : Fin 2) * 10000 + 1 * (j 0).val
      omega
    | ⟨1, _⟩ =>
      show win0_0.index t (1 : Fin 2) * 64 + 1 * k.val = k.val
      omega
  · funext y
    show V c main_arg3 (((cfg0.win 1).blk t).view.emb y) = V c main_arg3 y
    refine congrArg (V c main_arg3) (funext fun a => Fin.ext ?_)
    match a with
    | ⟨0, _⟩ =>
      show win0_1.index t (0 : Fin 2) * 64 + 1 * (y 0).val = (y 0).val
      omega
    | ⟨1, _⟩ =>
      show win0_1.index t (1 : Fin 2) * 64 + 1 * (y 1).val = (y 1).val
      omega
  · funext y
    show V c main_arg4 (((cfg0.win 2).blk t).view.emb y) = V c main_arg4 y
    refine congrArg (V c main_arg4) (funext fun a => Fin.ext ?_)
    match a with
    | ⟨0, _⟩ =>
      show win0_2.index t (0 : Fin 1) * 64 + 1 * (y 0).val = (y 0).val
      omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

/-- Every index of the output array is in the block of the point its row falls in. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e00, e01, e10, e11, e20, e30, e31⟩ := index_facts t
  have ht : t.val = (i 0).val / 10000 := rfl
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- THE OUTPUT ARRAY after the call: the dense layer of the arrays the call finds. -/
theorem final (c : Dev nD) : (dat0 V c).arrAt 3 cfg0.N
    = dense (n := 100000) (k := 64) (m := 64) (V c main_arg0) (V c main_arg3) (V c main_arg4) :=
  (dat0 V c).arrAt_eq_of_cover 3 _ (fun t _ => flushed_eq V c t) cover

end Cert.KernelIdeal.NodeValue

end
-- ==== Proof.MsgValue.lean ====
/-
  The message call's output array as one function of the arrays it reads.

  The call runs two hundred grid points; point `t` reads rows `8000 t … 8000 t + 7999` of the edge attributes and
  of the gathered node encodings, the whole edge-encoder weights and bias, the two 64 × 128 halves of the message
  weights and the message bias, and writes the same rows of the output. One block's result is: the dense layer of
  the block of edge attributes, contracted against the first half of the message weights; plus the block of
  gathered node encodings contracted against the second half; plus the bias; through the leaky rectifier. Every
  entry of a row only reads the same row of the two inputs, so each block written is the corresponding block of
  that function of the WHOLE arrays. The two hundred row blocks cover the array: row `r` lies in the block of
  point `r / 8000`.
-/
import proofs.«100788_j47674136986069_2_alg».proof.Proof.Gen.KernelIdeal.Frame
import proofs.«100788_j47674136986069_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgValue

open Cert.KernelIdeal Cert.KernelIdeal.Gen Idealize.ShloMosaic Idealize.ShloMosaic.TcCoe Idealize.SL.Sem
open Idealize.ShloMosaic.ValueIdx Cert.Gnn
open Idealize.ShloMosaic.Pipeline (Dat)

/-! ## One block -/

theorem edgeProduct_l0 (i : S8000x64.Idx) (r : dot_S8000x32_S32x64_S8000x64_1_0_0_1_n_n.contr.Idx) : (dot_S8000x32_S32x64_S8000x64_1_0_0_1_n_n.lhsIdx i r 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
theorem edgeProduct_r1 (i : S8000x64.Idx) (r : dot_S8000x32_S32x64_S8000x64_1_0_0_1_n_n.contr.Idx) : (dot_S8000x32_S32x64_S8000x64_1_0_0_1_n_n.rhsIdx i r 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl
/-- The block product into a zero accumulator, at row `p` and column `q`: the sum over the 32 contracted indices. -/
theorem edgeProduct (a : FVec Ideal S8000x32 .bf16) (b : FVec Ideal S32x64 .bf16) (p : Fin 8000) (q : Fin 64) :
    (matmul dot_S8000x32_S32x64_S8000x64_1_0_0_1_n_n none a b (constant S8000x64 .f32 0x00000000#32) : FVec Ideal S8000x64 .f32) (ix2 p q)
      = ∑ j : Fin 32, a (ix2 p j) * b (ix2 j q) := by
  simp only [matmul]
  rw [Ideal.matmul_constant_zero_apply, ← Equiv.sum_comp (ValueIdx.contrEquiv1 dot_S8000x32_S32x64_S8000x64_1_0_0_1_n_n 32 rfl rfl).symm]
  refine Finset.sum_congr rfl fun k _ => ?_
  have hk := ValueIdx.contrEquiv1_symm_val dot_S8000x32_S32x64_S8000x64_1_0_0_1_n_n 32 rfl rfl k
  have el : dot_S8000x32_S32x64_S8000x64_1_0_0_1_n_n.lhsIdx (ix2 p q) ((ValueIdx.contrEquiv1 dot_S8000x32_S32x64_S8000x64_1_0_0_1_n_n 32 rfl rfl).symm k) = ix2 p k := funext fun a => Fin.ext (by
    match a with
    | ⟨0, _⟩ => exact edgeProduct_l0 _ _
    | ⟨1, _⟩ => exact (dot_S8000x32_S32x64_S8000x64_1_0_0_1_n_n.lhsIdx_val_of_single rfl _ _).trans hk)
  have er : dot_S8000x32_S32x64_S8000x64_1_0_0_1_n_n.rhsIdx (ix2 p q) ((ValueIdx.contrEquiv1 dot_S8000x32_S32x64_S8000x64_1_0_0_1_n_n 32 rfl rfl).symm k) = ix2 k q := funext fun a => Fin.ext (by
    match a with
    | ⟨0, _⟩ => exact (dot_S8000x32_S32x64_S8000x64_1_0_0_1_n_n.rhsIdx_val_of_single rfl _ _).trans hk
    | ⟨1, _⟩ => exact edgeProduct_r1 _ _)
  rw [el, er]

theorem msgProduct_l0 (i : S8000x128.Idx) (r : dot_S8000x64_S64x128_S8000x128_1_0_0_1_n_n.contr.Idx) : (dot_S8000x64_S64x128_S8000x128_1_0_0_1_n_n.lhsIdx i r 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem msgProduct_r1 (i : S8000x128.Idx) (r : dot_S8000x64_S64x128_S8000x128_1_0_0_1_n_n.contr.Idx) : (dot_S8000x64_S64x128_S8000x128_1_0_0_1_n_n.rhsIdx i r 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl
/-- The block product into a zero accumulator, at row `p` and column `q`: the sum over the 64 contracted indices. -/
theorem msgProduct (a : FVec Ideal S8000x64 .bf16) (b : FVec Ideal S64x128 .bf16) (p : Fin 8000) (q : Fin 128) :
    (matmul dot_S8000x64_S64x128_S8000x128_1_0_0_1_n_n none a b (constant S8000x128 .f32 0x00000000#32) : FVec Ideal S8000x128 .f32) (ix2 p q)
      = ∑ j : Fin 64, a (ix2 p j) * b (ix2 j q) := by
  simp only [matmul]
  rw [Ideal.matmul_constant_zero_apply, ← Equiv.sum_comp (ValueIdx.contrEquiv1 dot_S8000x64_S64x128_S8000x128_1_0_0_1_n_n 64 rfl rfl).symm]
  refine Finset.sum_congr rfl fun k _ => ?_
  have hk := ValueIdx.contrEquiv1_symm_val dot_S8000x64_S64x128_S8000x128_1_0_0_1_n_n 64 rfl rfl k
  have el : dot_S8000x64_S64x128_S8000x128_1_0_0_1_n_n.lhsIdx (ix2 p q) ((ValueIdx.contrEquiv1 dot_S8000x64_S64x128_S8000x128_1_0_0_1_n_n 64 rfl rfl).symm k) = ix2 p k := funext fun a => Fin.ext (by
    match a with
    | ⟨0, _⟩ => exact msgProduct_l0 _ _
    | ⟨1, _⟩ => exact (dot_S8000x64_S64x128_S8000x128_1_0_0_1_n_n.lhsIdx_val_of_single rfl _ _).trans hk)
  have er : dot_S8000x64_S64x128_S8000x128_1_0_0_1_n_n.rhsIdx (ix2 p q) ((ValueIdx.contrEquiv1 dot_S8000x64_S64x128_S8000x128_1_0_0_1_n_n 64 rfl rfl).symm k) = ix2 k q := funext fun a => Fin.ext (by
    match a with
    | ⟨0, _⟩ => exact (dot_S8000x64_S64x128_S8000x128_1_0_0_1_n_n.rhsIdx_val_of_single rfl _ _).trans hk
    | ⟨1, _⟩ => exact msgProduct_r1 _ _)
  rw [el, er]

/-- The edge-encoder bias, cast to one row and broadcast over the block's rows, read at row `p`, column `q`. -/
theorem edgeBias (b : FVec Ideal S64 .f32) (p : Fin 8000) (q : Fin 64) :
    (broadcastTo S8000x64 (shapeCast S1x64 b shapeCasts_S64_S1x64) broadcasts_S1x64_S8000x64 : FVec Ideal S8000x64 .f32) (ix2 p q)
      = b (ix1 q) :=
  (broadcastTo_1b_ab_apply _ broadcasts_S1x64_S8000x64 p q).trans (shapeCast_a_1a_apply b shapeCasts_S64_S1x64 _ q)

/-- The message bias, cast to one row and broadcast over the block's rows, read at row `p`, column `q`. -/
theorem msgBias (b : FVec Ideal S128 .f32) (p : Fin 8000) (q : Fin 128) :
    (broadcastTo S8000x128 (shapeCast S1x128 b shapeCasts_S128_S1x128) broadcasts_S1x128_S8000x128 : FVec Ideal S8000x128 .f32) (ix2 p q)
      = b (ix1 q) :=
  (broadcastTo_1b_ab_apply _ broadcasts_S1x128_S8000x128 p q).trans (shapeCast_a_1a_apply b shapeCasts_S128_S1x128 _ q)

/-- The first half of the body: the block of edge attributes through the edge encoder is the dense layer of the block. -/
theorem edgePart_eq (x0 : FVec Ideal S8000x32 .f32) (x2 : FVec Ideal S32x64 .f32) (x5 : FVec Ideal S64 .f32) :
    (truncf .bf16 (select (cmpf .oge (addf (matmul dot_S8000x32_S32x64_S8000x64_1_0_0_1_n_n none (truncf .bf16 x0 bitsLt_bf16_f32) (truncf .bf16 x2 bitsLt_bf16_f32) (constant S8000x64 .f32 0x00000000#32)) (broadcastTo S8000x64 (shapeCast S1x64 x5 shapeCasts_S64_S1x64) broadcasts_S1x64_S8000x64) : FVec Ideal S8000x64 .f32) (broadcast S8000x64 (Scalar.ofBits .f32 0x00000000#32))) (addf (matmul dot_S8000x32_S32x64_S8000x64_1_0_0_1_n_n none (truncf .bf16 x0 bitsLt_bf16_f32) (truncf .bf16 x2 bitsLt_bf16_f32) (constant S8000x64 .f32 0x00000000#32)) (broadcastTo S8000x64 (shapeCast S1x64 x5 shapeCasts_S64_S1x64) broadcasts_S1x64_S8000x64) : FVec Ideal S8000x64 .f32) (mulf (broadcast S8000x64 (Scalar.ofBits .f32 0x3C23D70A#32)) (addf (matmul dot_S8000x32_S32x64_S8000x64_1_0_0_1_n_n none (truncf .bf16 x0 bitsLt_bf16_f32) (truncf .bf16 x2 bitsLt_bf16_f32) (constant S8000x64 .f32 0x00000000#32)) (broadcastTo S8000x64 (shapeCast S1x64 x5 shapeCasts_S64_S1x64) broadcasts_S1x64_S8000x64) : FVec Ideal S8000x64 .f32))) bitsLt_bf16_f32 : FVec Ideal S8000x64 .bf16)
      = dense (n := 8000) (k := 32) (m := 64) x0 x2 x5 := by
  funext j
  obtain ⟨p, q, rfl⟩ : ∃ (p : Fin 8000) (q : Fin 64), j = ix2 p q := ⟨j 0, j 1, eq_ix2 j⟩
  show leaky ((matmul dot_S8000x32_S32x64_S8000x64_1_0_0_1_n_n none (truncf .bf16 x0 bitsLt_bf16_f32)
      (truncf .bf16 x2 bitsLt_bf16_f32) (constant S8000x64 .f32 0x00000000#32) : FVec Ideal S8000x64 .f32) (ix2 p q)
    + (broadcastTo S8000x64 (shapeCast S1x64 x5 shapeCasts_S64_S1x64) broadcasts_S1x64_S8000x64 : FVec Ideal S8000x64 .f32) (ix2 p q))
    = leaky ((∑ j : Fin 32, x0 (ix2 p j) * x2 (ix2 j q)) + x5 (ix1 q))
  rw [edgeProduct, edgeBias]
  rfl

/-- What the body stores, from the seven blocks it loads. -/
theorem payload_eq (x0 : FVec Ideal S8000x32 .f32) (x2 : FVec Ideal S32x64 .f32) (x5 : FVec Ideal S64 .f32)
    (x15 : FVec Ideal S8000x64 .bf16) (x17 x20 : FVec Ideal S64x128 .f32) (x26 : FVec Ideal S128 .f32) :
    k1_pay1 (F := Ideal) x0 x2 x5 x15 x17 x20 x26
      = mk2 (msgAt (n := 8000) (dense (n := 8000) (k := 32) (m := 64) x0 x2 x5) x15 x17 x20 x26) := by
  funext j
  obtain ⟨p, q, rfl⟩ : ∃ (p : Fin 8000) (q : Fin 128), j = ix2 p q := ⟨j 0, j 1, eq_ix2 j⟩
  show leaky (((matmul dot_S8000x64_S64x128_S8000x128_1_0_0_1_n_n none (truncf .bf16 (select (cmpf .oge (addf (matmul dot_S8000x32_S32x64_S8000x64_1_0_0_1_n_n none (truncf .bf16 x0 bitsLt_bf16_f32) (truncf .bf16 x2 bitsLt_bf16_f32) (constant S8000x64 .f32 0x00000000#32)) (broadcastTo S8000x64 (shapeCast S1x64 x5 shapeCasts_S64_S1x64) broadcasts_S1x64_S8000x64) : FVec Ideal S8000x64 .f32) (broadcast S8000x64 (Scalar.ofBits .f32 0x00000000#32))) (addf (matmul dot_S8000x32_S32x64_S8000x64_1_0_0_1_n_n none (truncf .bf16 x0 bitsLt_bf16_f32) (truncf .bf16 x2 bitsLt_bf16_f32) (constant S8000x64 .f32 0x00000000#32)) (broadcastTo S8000x64 (shapeCast S1x64 x5 shapeCasts_S64_S1x64) broadcasts_S1x64_S8000x64) : FVec Ideal S8000x64 .f32) (mulf (broadcast S8000x64 (Scalar.ofBits .f32 0x3C23D70A#32)) (addf (matmul dot_S8000x32_S32x64_S8000x64_1_0_0_1_n_n none (truncf .bf16 x0 bitsLt_bf16_f32) (truncf .bf16 x2 bitsLt_bf16_f32) (constant S8000x64 .f32 0x00000000#32)) (broadcastTo S8000x64 (shapeCast S1x64 x5 shapeCasts_S64_S1x64) broadcasts_S1x64_S8000x64) : FVec Ideal S8000x64 .f32))) bitsLt_bf16_f32 : FVec Ideal S8000x64 .bf16)
        (truncf .bf16 (shapeCast S64x128 x17 shapeCasts_S64x128_S64x128) bitsLt_bf16_f32) (constant S8000x128 .f32 0x00000000#32) : FVec Ideal S8000x128 .f32) (ix2 p q)
      + (matmul dot_S8000x64_S64x128_S8000x128_1_0_0_1_n_n none (shapeCast S8000x64 x15 shapeCasts_S8000x64_S8000x64)
        (truncf .bf16 (shapeCast S64x128 x20 shapeCasts_S64x128_S64x128) bitsLt_bf16_f32) (constant S8000x128 .f32 0x00000000#32) : FVec Ideal S8000x128 .f32) (ix2 p q))
    + (broadcastTo S8000x128 (shapeCast S1x128 x26 shapeCasts_S128_S1x128) broadcasts_S1x128_S8000x128 : FVec Ideal S8000x128 .f32) (ix2 p q))
    = msgAt (n := 8000) (dense (n := 8000) (k := 32) (m := 64) x0 x2 x5) x15 x17 x20 x26 p q
  rw [edgePart_eq, shapeCast_self x17, shapeCast_self x20, shapeCast_self x15, msgProduct, msgProduct, msgBias]
  rfl

/-! ## From blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps, decided over the two hundred grid points: the edge-attribute window, the window of
    gathered encodings and the output window are at row block `t`, column block 0; the five weight and bias windows
    stay at block 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- A message entry depends on the two feature matrices only through the entry's row. -/
theorem msg_congr {n n' : Nat} (e g : Mat n 64) (e' g' : Mat n' 64) (w1 w1' w2 w2' : Mat 64 128) (b b' : Vct 128)
    (i : (⟨2, ![n, 128]⟩ : Shape).Idx) (i' : (⟨2, ![n', 128]⟩ : Shape).Idx) (hcol : (i 1).val = (i' 1).val)
    (he : ∀ k : Fin 64, e (ix2 ⟨(i 0).val, (i 0).isLt⟩ k) = e' (ix2 ⟨(i' 0).val, (i' 0).isLt⟩ k))
    (hg : ∀ k : Fin 64, g (ix2 ⟨(i 0).val, (i 0).isLt⟩ k) = g' (ix2 ⟨(i' 0).val, (i' 0).isLt⟩ k))
    (hw1 : w1 = w1') (hw2 : w2 = w2') (hb : b = b') :
    mk2 (msgAt e g w1 w2 b) i = mk2 (msgAt e' g' w1' w2' b') i' := by
  subst hw1 hw2 hb
  show msgAt e g w1 w2 b ⟨(i 0).val, (i 0).isLt⟩ ⟨(i 1).val, (i 1).isLt⟩ = msgAt e' g' w1 w2 b ⟨(i' 0).val, (i' 0).isLt⟩ ⟨(i' 1).val, (i' 1).isLt⟩
  have hq : (⟨(i 1).val, (i 1).isLt⟩ : Fin 128) = ⟨(i' 1).val, (i' 1).isLt⟩ := Fin.ext hcol
  rw [hq]
  exact msgAt_congr e g e' g' w1 w2 b _ _ _ he hg

/-- WHAT POINT `t` WRITES BACK is block `t` of the message function of the whole arrays as the call finds them. -/
theorem flushed_eq (c : Dev nD) (t : Fin cfg1.N) :
    (dat1 V c).flushed 7 t = ((cfg1.win 7).blk t).view.read (Elt Ideal)
      (mk2 (msgAt (n := 1600000) (dense (n := 1600000) (k := 32) (m := 64) (V c main_arg2) (V c main_arg5) (V c main_arg6))
        (V c main_v11) (V c main_v12) (V c main_v13) (V c main_arg8))) := by
  show (cfg1.win 7).cut (grid1.coords t) ((dat1 V c).after 7 t) = _
  rw [after1_7]
  unfold out1_7
  rw [View.canon_unit_zero zero2]
  simp only [View.ld_unit_zero (S := S8000x32) zero2, View.ld_unit_zero (S := S8000x64) zero2, View.ld_unit_zero (S := S32x64) zero2,
    View.ld_unit_zero (S := S64x128) zero2, View.ld_unit_zero (S := S64) zero1, View.ld_unit_zero (S := S128) zero1]
  rw [payload_eq]
  obtain ⟨e00, e01, e10, e11, e20, e21, e30, e40, e41, e50, e51, e60, e70, e71⟩ := index_facts t
  funext j
  refine msg_congr (n := 8000) (n' := 1600000) _ _ _ _ _ _ _ _ _ _ j (((cfg1.win 7).blk t).view.emb j) ?_ ?_ ?_ ?_ ?_ ?_
  · show (j 1).val = win1_7.index t (1 : Fin 2) * 128 + 1 * (j 1).val
    omega
  · intro k
    -- the edge encodings of the block's row are those of the array's row: the same row of the edge attributes
    show denseAt (n := 8000) _ _ _ ⟨(j 0).val, (j 0).isLt⟩ k = denseAt (n := 1600000) _ _ _ ⟨((((cfg1.win 7).blk t).view.emb j) 0).val, _⟩ k
    have hw : iblk1 V c 2 t = V c main_arg5 := by
      funext y
      show V c main_arg5 (((cfg1.win 2).blk t).view.emb y) = V c main_arg5 y
      refine congrArg (V c main_arg5) (funext fun a => Fin.ext ?_)
      match a with
      | ⟨0, _⟩ =>
        show win1_2.index t (0 : Fin 2) * 32 + 1 * (y 0).val = (y 0).val
        omega
      | ⟨1, _⟩ =>
        show win1_2.index t (1 : Fin 2) * 64 + 1 * (y 1).val = (y 1).val
        omega
    have hb : iblk1 V c 3 t = V c main_arg6 := by
      funext y
      show V c main_arg6 (((cfg1.win 3).blk t).view.emb y) = V c main_arg6 y
      refine congrArg (V c main_arg6) (funext fun a => Fin.ext ?_)
      match a with
      | ⟨0, _⟩ =>
        show win1_3.index t (0 : Fin 1) * 64 + 1 * (y 0).val = (y 0).val
        omega
    rw [hw, hb]
    refine denseAt_congr _ _ _ _ _ _ _ fun r => ?_
    show V c main_arg2 (((cfg1.win 0).blk t).view.emb (ix2 ⟨(j 0).val, (j 0).isLt⟩ r)) = V c main_arg2 _
    refine congrArg (V c main_arg2) (funext fun a => Fin.ext ?_)
    match a with
    | ⟨0, _⟩ =>
      show win1_0.index t (0 : Fin 2) * 8000 + 1 * (j 0).val = win1_7.index t (0 : Fin 2) * 8000 + 1 * (j 0).val
      omega
    | ⟨1, _⟩ =>
      show win1_0.index t (1 : Fin 2) * 32 + 1 * r.val = r.val
      omega
  · intro k
    show V c main_v11 (((cfg1.win 1).blk t).view.emb (ix2 ⟨(j 0).val, (j 0).isLt⟩ k)) = V c main_v11 _
    refine congrArg (V c main_v11) (funext fun a => Fin.ext ?_)
    match a with
    | ⟨0, _⟩ =>
      show win1_1.index t (0 : Fin 2) * 8000 + 1 * (j 0).val = win1_7.index t (0 : Fin 2) * 8000 + 1 * (j 0).val
      omega
    | ⟨1, _⟩ =>
      show win1_1.index t (1 : Fin 2) * 64 + 1 * k.val = k.val
      omega
  · funext y
    show V c main_v12 (((cfg1.win 4).blk t).view.emb y) = V c main_v12 y
    refine congrArg (V c main_v12) (funext fun a => Fin.ext ?_)
    match a with
    | ⟨0, _⟩ =>
      show win1_4.index t (0 : Fin 2) * 64 + 1 * (y 0).val = (y 0).val
      omega
    | ⟨1, _⟩ =>
      show win1_4.index t (1 : Fin 2) * 128 + 1 * (y 1).val = (y 1).val
      omega
  · funext y
    show V c main_v13 (((cfg1.win 5).blk t).view.emb y) = V c main_v13 y
    refine congrArg (V c main_v13) (funext fun a => Fin.ext ?_)
    match a with
    | ⟨0, _⟩ =>
      show win1_5.index t (0 : Fin 2) * 64 + 1 * (y 0).val = (y 0).val
      omega
    | ⟨1, _⟩ =>
      show win1_5.index t (1 : Fin 2) * 128 + 1 * (y 1).val = (y 1).val
      omega
  · funext y
    show V c main_arg8 (((cfg1.win 6).blk t).view.emb y) = V c main_arg8 y
    refine congrArg (V c main_arg8) (funext fun a => Fin.ext ?_)
    match a with
    | ⟨0, _⟩ =>
      show win1_6.index t (0 : Fin 1) * 128 + 1 * (y 0).val = (y 0).val
      omega

/-- An index of the output array is in point `t`'s block iff each coordinate is in the block's range on its axis. -/
theorem mem_blk (t : Fin cfg1.N) (i : S1600000x128.Idx) :
    i ∈ ((cfg1.win 7).blk t).view.set ↔ ∀ a : Fin 2, win1_7.index t a * S8000x128.size a ≤ (i a).val ∧ (i a).val < win1_7.index t a * S8000x128.size a + S8000x128.size a := by
  show i ∈ ((View.whole main_v14).slice (win1_7.rect t)).set ↔ _
  rw [View.set_slice_whole, Rect.mem_set_unit]
  exact Iff.rfl

/-- Every index of the output array is in the block of the point its row falls in. -/
theorem cover (i : S1600000x128.Idx) : ∃ t : Fin cfg1.N, (cfg1.win 7).flush t = true ∧ i ∈ ((cfg1.win 7).blk t).view.set := by
  have hi0 : (i 0).val < 1600000 := (i 0).isLt
  have hi1 : (i 1).val < 128 := (i 1).isLt
  have hN : cfg1.N = 200 := N_1
  let t : Fin cfg1.N := ⟨(i 0).val / 8000, by rw [hN]; omega⟩
  obtain ⟨e00, e01, e10, e11, e20, e21, e30, e40, e41, e50, e51, e60, e70, e71⟩ := index_facts t
  have ht : t.val = (i 0).val / 8000 := rfl
  refine ⟨t, flush1_7 t, ?_⟩
  rw [mem_blk]
  intro a
  match a with
  | ⟨0, _⟩ =>
    show win1_7.index t (0 : Fin 2) * 8000 ≤ (i 0).val ∧ (i 0).val < win1_7.index t (0 : Fin 2) * 8000 + 8000
    omega
  | ⟨1, _⟩ =>
    show win1_7.index t (1 : Fin 2) * 128 ≤ (i 1).val ∧ (i 1).val < win1_7.index t (1 : Fin 2) * 128 + 128
    omega

/-- THE OUTPUT ARRAY after the call: the message function of the arrays the call finds. -/
theorem final (c : Dev nD) : (dat1 V c).arrAt 7 cfg1.N
    = mk2 (msgAt (n := 1600000) (dense (n := 1600000) (k := 32) (m := 64) (V c main_arg2) (V c main_arg5) (V c main_arg6))
        (V c main_v11) (V c main_v12) (V c main_v13) (V c main_arg8)) :=
  (dat1 V c).arrAt_eq_of_cover 7 _ (fun t _ => flushed_eq V c t) cover

end Cert.KernelIdeal.MsgValue

end
-- ==== Proof.KernelValue.lean ====
/-
  The idealized kernel program's result as one function of its arguments.

  Folding the four stretches of @main over the launch memory: the node-encoder call leaves the dense layer of the
  node features in its output; the host stretch cuts the source and target rows out of the edge list, wraps negative
  source indices into range, gathers the encoded nodes at the source indices and cuts the message weights into
  their upper and lower 64 rows; the message call leaves, for every edge, the message of its encoded attributes and
  its gathered node encoding; the last stretch widens the messages (the identity on extended reals) and adds each
  into the row of its target node, starting from zeros.
-/
import proofs.«100788_j47674136986069_2_alg».proof.Proof.KernelRun
import proofs.«100788_j47674136986069_2_alg».proof.Proof.NodeValue
import proofs.«100788_j47674136986069_2_alg».proof.Proof.MsgValue
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Gnn

/-- Row `r` of the edge list as a vector. -/
def edgeRow (r : Nat) (h : S2x1600000.Slices ![r, 0] S1x1600000) (ei : (⟨S2x1600000, .i32⟩ : BufTy).Contents (Elt Ideal)) :
    (⟨S1600000, .i32⟩ : BufTy).Contents (Elt Ideal) :=
  shapeCast S1600000 (extractStridedSlice S1x1600000 ![r, 0] ei h) shapeCasts_S1x1600000_S1600000

/-- The source indices as the gather takes them: row 0 of the edge list, a negative index moved up by the number of
    nodes, as a column. -/
def srcIdx (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (edgeRow 0 slices_S2x1600000_S1x1600000_0_0 ei) (broadcastInDim S1600000 ![] bcast_S_S1600000 (constantI S_ 32 0#32)))
      (addi (edgeRow 0 slices_S2x1600000_S1x1600000_0_0 ei) (broadcastInDim S1600000 ![] bcast_S_S1600000 (constantI S_ 32 100000#32)))
      (edgeRow 0 slices_S2x1600000_S1x1600000_0_0 ei))

/-- The target indices as the scatter takes them: row 1 of the edge list as a column. -/
def dstIdx (ei : (⟨S2x1600000, .i32⟩ : BufTy).Contents (Elt Ideal)) : (⟨S1600000x1, .i32⟩ : BufTy).Contents (Elt Ideal) :=
  broadcastInDim S1600000x1 ![0] bcast_S1600000_S1600000x1_0 (edgeRow 1 slices_S2x1600000_S1x1600000_1_0 ei)

/-- The encoded nodes gathered at the source indices. -/
def gathered (x : Mat 100000 64) (wn : Mat 64 64) (bn : Vct 64) (ei : (⟨S2x1600000, .i32⟩ : BufTy).Contents (Elt Ideal)) : Mat 1600000 64 :=
  Host.gather gather_S100000x64_S1600000x1_S1600000x64_1_0_n_n_0_1_164 (dense x wn bn) (srcIdx ei)

/-- The messages of all edges. -/
def messages (x : Mat 100000 64) (ei : (⟨S2x1600000, .i32⟩ : BufTy).Contents (Elt Ideal)) (ea : Mat 1600000 32) (wn : Mat 64 64)
    (bn : Vct 64) (we : Mat 32 64) (be : Vct 64) (wg : Mat 128 128) (bg : Vct 128) : Mat 1600000 128 :=
  mk2 (msgAt (dense ea we be) (gathered x wn bn ei)
    (extractStridedSlice S64x128 ![0, 0] wg slices_S128x128_S64x128_0_0) (extractStridedSlice S64x128 ![64, 0] wg slices_S128x128_S64x128_64_0) bg)

/-- The program's result: every message added into the row of its target node, from zeros. -/
def result (x : Mat 100000 64) (ei : (⟨S2x1600000, .i32⟩ : BufTy).Contents (Elt Ideal)) (ea : Mat 1600000 32) (wn : Mat 64 64)
    (bn : Vct 64) (we : Mat 32 64) (be : Vct 64) (wg : Mat 128 128) (bg : Vct 128) : Mat 100000 128 :=
  Host.scatterAdd (F := Ideal) (φ := .f32) scatter_S100000x128_S1600000x1_S1600000x128_1_0_0_1
    (broadcastInDim S100000x128 ![] bcast_S_S100000x128 (constant (F := Ideal) S_ .f32 0x00000000#32)) (dstIdx ei)
    (messages x ei ea wn bn we be wg bg)

variable (m : (ℓ : Loc nD τ sig) → Buf (Elt Ideal) ℓ) (ρ : Dev nD → PrngReg)

/-! ## After the node-encoder call -/

theorem W1_arg (c : Dev nD) (b : Ref sig .tc) (hb : ∀ w, Pipeline.arrRef spec0 w ≠ b) :
    W1 m ρ c (Proc.devRef .tc b) = m ((c : Thread nD τ).loc b) := W1_of_ne m ρ c b hb

theorem W1_v0 (c : Dev nD) : W1 m ρ c (Proc.devRef .tc main_v0)
    = dense (n := 100000) (k := 64) (m := 64) (m ((c : Thread nD τ).loc main_arg0)) (m ((c : Thread nD τ).loc main_arg3)) (m ((c : Thread nD τ).loc main_arg4)) :=
  (W1_arr m ρ c 3).trans (NodeValue.final (V0 m ρ) c)

/-! ## After the first host stretch -/

theorem W2_keep (c : Dev nD) (b : Ref sig .tc)
    (h : ∀ op ∈ (hostOps1 : List (HloOp τ sig (Elt Ideal))), Proc.devRef .tc b ∉ op.writes) :
    W2 m ρ c (Proc.devRef .tc b) = W1 m ρ c (Proc.devRef .tc b) :=
  StableHlo.after_of_forall_not_mem (b := Proc.devRef .tc b) _ _ h

theorem W2_arg2 (c : Dev nD) : W2 m ρ c (Proc.devRef .tc main_arg2) = m ((c : Thread nD τ).loc main_arg2) := by
  show StableHlo.after hostOps1 (W1 m ρ c) (Proc.devRef .tc main_arg2) = _
  after_results_simp
  exact W1_arg m ρ c main_arg2 (by decide)
theorem W2_arg5 (c : Dev nD) : W2 m ρ c (Proc.devRef .tc main_arg5) = m ((c : Thread nD τ).loc main_arg5) := by
  show StableHlo.after hostOps1 (W1 m ρ c) (Proc.devRef .tc main_arg5) = _
  after_results_simp
  exact W1_arg m ρ c main_arg5 (by decide)
theorem W2_arg6 (c : Dev nD) : W2 m ρ c (Proc.devRef .tc main_arg6) = m ((c : Thread nD τ).loc main_arg6) := by
  show StableHlo.after hostOps1 (W1 m ρ c) (Proc.devRef .tc main_arg6) = _
  after_results_simp
  exact W1_arg m ρ c main_arg6 (by decide)
theorem W2_arg8 (c : Dev nD) : W2 m ρ c (Proc.devRef .tc main_arg8) = m ((c : Thread nD τ).loc main_arg8) := by
  show StableHlo.after hostOps1 (W1 m ρ c) (Proc.devRef .tc main_arg8) = _
  after_results_simp
  exact W1_arg m ρ c main_arg8 (by decide)

/-- The gathered node encodings, as the message call finds them. -/
theorem W2_v11 (c : Dev nD) : W2 m ρ c (Proc.devRef .tc main_v11)
    = gathered (m ((c : Thread nD τ).loc main_arg0)) (m ((c : Thread nD τ).loc main_arg3)) (m ((c : Thread nD τ).loc main_arg4)) (m ((c : Thread nD τ).loc main_arg1)) := by
  show StableHlo.after hostOps1 (W1 m ρ c) (Proc.devRef .tc main_v11) = _
  after_results_simp
  rw [W1_v0, W1_arg m ρ c main_arg1 (by decide)]
  rfl

/-- The upper and the lower half of the message weights, as the message call finds them. -/
theorem W2_v12 (c : Dev nD) : W2 m ρ c (Proc.devRef .tc main_v12)
    = extractStridedSlice S64x128 ![0, 0] (m ((c : Thread nD τ).loc main_arg7)) slices_S128x128_S64x128_0_0 := by
  show StableHlo.after hostOps1 (W1 m ρ c) (Proc.devRef .tc main_v12) = _
  after_results_simp
  rw [W1_arg m ρ c main_arg7 (by decide)]
theorem W2_v13 (c : Dev nD) : W2 m ρ c (Proc.devRef .tc main_v13)
    = extractStridedSlice S64x128 ![64, 0] (m ((c : Thread nD τ).loc main_arg7)) slices_S128x128_S64x128_64_0 := by
  show StableHlo.after hostOps1 (W1 m ρ c) (Proc.devRef .tc main_v13) = _
  after_results_simp
  rw [W1_arg m ρ c main_arg7 (by decide)]

/-- The target row of the edge list, as the last stretch finds it. -/
theorem W2_v4 (c : Dev nD) : W2 m ρ c (Proc.devRef .tc main_v4) = edgeRow 1 slices_S2x1600000_S1x1600000_1_0 (m ((c : Thread nD τ).loc main_arg1)) := by
  show StableHlo.after hostOps1 (W1 m ρ c) (Proc.devRef .tc main_v4) = _
  after_results_simp
  rw [W1_arg m ρ c main_arg1 (by decide)]
  rfl

/-! ## After the message call -/

theorem W3_v4 (c : Dev nD) : W3 m ρ c (Proc.devRef .tc main_v4) = edgeRow 1 slices_S2x1600000_S1x1600000_1_0 (m ((c : Thread nD τ).loc main_arg1)) :=
  (W3_of_ne m ρ c main_v4 (by decide)).trans (W2_v4 m ρ c)

/-- The message call's output: the messages of all edges. -/
theorem W3_v14 (c : Dev nD) : W3 m ρ c (Proc.devRef .tc main_v14) = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W3_arr m ρ c 7).trans ((MsgValue.final (V2 m ρ) c).trans ?_)
  show mk2 (msgAt (dense (W2 m ρ c (Proc.devRef .tc main_arg2)) (W2 m ρ c (Proc.devRef .tc main_arg5)) (W2 m ρ c (Proc.devRef .tc main_arg6)))
    (W2 m ρ c (Proc.devRef .tc main_v11)) (W2 m ρ c (Proc.devRef .tc main_v12)) (W2 m ρ c (Proc.devRef .tc main_v13)) (W2 m ρ c (Proc.devRef .tc main_arg8))) = _
  rw [W2_arg2, W2_arg5, W2_arg6, W2_arg8, W2_v11, W2_v12, W2_v13]
  rfl

/-! ## After the last host stretch -/

/-- The result buffer at the end: every message added into its target row, from zeros. -/
theorem W4_v18 (c : Dev nD) : W4 m ρ c (Proc.devRef .tc main_v18) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W3 m ρ c) (Proc.devRef .tc main_v18) = _
  after_results_simp
  rw [W3_v14, W3_v4]
  rfl

/-! ## The run -/

/-- Every weakly fair execution of the idealized kernel program terminates without a fault, with the result buffer at
    `result` of the launch contents of the nine arguments, and the arguments unchanged. -/
theorem run : θ_run defs (onTc (τ := τ) (main (F := Ideal))) ⟨m, fun _ => 0, ρ⟩ (fun r => ∀ c : Dev nD,
      r.2.mem ((c.tc : Thread nD τ).loc main_v18) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W4_v18 m ρ c), (h c).2⟩) (Run.run_result (F := Ideal) m ρ)

end Cert.KernelIdeal.Whole

end
-- ==== Proof.RefValue.lean ====
/-
  The reference program's stages, read as the layer's mathematics.

  The reference computes the node encodings and the edge encodings as dense layers with a leaky rectifier, lays
  the edge encodings and the gathered node encodings side by side (a concatenation along the feature axis), and
  contracts the 128 side-by-side features against the whole message weight matrix. Each stage is read at an index
  from its operands at an index; a concatenated entry comes from the left matrix when its column is below 64 and
  from the right matrix, 64 columns to the left, otherwise.
-/
import proofs.«100788_j47674136986069_2_alg».proof.Proof.RefReadP
import proofs.«100788_j47674136986069_2_alg».proof.Proof.Spec

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Cert.Gnn

/-! ## The index functions of the generated stage lemmas, at an index given by coordinates -/

theorem lidx0 (p : Fin 100000) (q k : Fin 64) : lidx_main_v0 (ix2 p q) k = ix2 p k :=
  funext fun a => Fin.ext (by match a with | ⟨0, _⟩ => rfl | ⟨1, _⟩ => rfl)
theorem ridx0 (p : Fin 100000) (q k : Fin 64) : ridx_main_v0 (ix2 p q) k = ix2 k q :=
  funext fun a => Fin.ext (by match a with | ⟨0, _⟩ => rfl | ⟨1, _⟩ => rfl)
theorem bidx0 (p : Fin 100000) (q : Fin 64) : idx_main_v1 (idx_main_v2 (ix2 p q)) = ix1 q :=
  funext fun a => Fin.ext (by match a with | ⟨0, _⟩ => rfl)

theorem lidx9 (p : Fin 1600000) (q : Fin 64) (k : Fin 32) : lidx_main_v9 (ix2 p q) k = ix2 p k :=
  funext fun a => Fin.ext (by match a with | ⟨0, _⟩ => rfl | ⟨1, _⟩ => rfl)
theorem ridx9 (p : Fin 1600000) (q : Fin 64) (k : Fin 32) : ridx_main_v9 (ix2 p q) k = ix2 k q :=
  funext fun a => Fin.ext (by match a with | ⟨0, _⟩ => rfl | ⟨1, _⟩ => rfl)
theorem bidx9 (p : Fin 1600000) (q : Fin 64) : idx_main_v10 (idx_main_v11 (ix2 p q)) = ix1 q :=
  funext fun a => Fin.ext (by match a with | ⟨0, _⟩ => rfl)

theorem lidx30 (p : Fin 1600000) (q k : Fin 128) : lidx_main_v30 (ix2 p q) k = ix2 p k :=
  funext fun a => Fin.ext (by match a with | ⟨0, _⟩ => rfl | ⟨1, _⟩ => rfl)
theorem ridx30 (p : Fin 1600000) (q k : Fin 128) : ridx_main_v30 (ix2 p q) k = ix2 k q :=
  funext fun a => Fin.ext (by match a with | ⟨0, _⟩ => rfl | ⟨1, _⟩ => rfl)
theorem bidx30 (p : Fin 1600000) (q : Fin 128) : idx_main_v31 (idx_main_v32 (ix2 p q)) = ix1 q :=
  funext fun a => Fin.ext (by match a with | ⟨0, _⟩ => rfl)

/-! ## The two encoders -/

/-- The reference's node encodings are the dense layer of the node features. -/
theorem node_eq (x0 : (⟨S100000x64, .f32⟩ : BufTy).Contents (Elt Ideal)) (x3 : (⟨S64x64, .f32⟩ : BufTy).Contents (Elt Ideal))
    (x4 : (⟨S64, .f32⟩ : BufTy).Contents (Elt Ideal)) :
    val_main_v8 (F := Ideal) x0 x3 x4 = dense (n := 100000) (k := 64) (m := 64) x0 x3 x4 := by
  funext i
  obtain ⟨p, q, rfl⟩ : ∃ (p : Fin 100000) (q : Fin 64), i = ix2 p q := ⟨i 0, i 1, eq_ix2 i⟩
  rw [val_main_v8_apply, val_main_v5_apply, val_main_v7_apply, val_main_v3_apply, val_main_v0_apply, val_main_v2_apply,
    val_main_v1_apply, val_main_v4_apply, val_main_v6_apply, val_main_cst_apply, val_main_cst_0_apply]
  simp only [lidx0, ridx0, bidx0]
  rfl

/-- The reference's edge encodings are the dense layer of the edge attributes. -/
theorem edge_eq (x2 : (⟨S1600000x32, .f32⟩ : BufTy).Contents (Elt Ideal)) (x5 : (⟨S32x64, .f32⟩ : BufTy).Contents (Elt Ideal))
    (x6 : (⟨S64, .f32⟩ : BufTy).Contents (Elt Ideal)) :
    val_main_v17 (F := Ideal) x2 x5 x6 = dense (n := 1600000) (k := 32) (m := 64) x2 x5 x6 := by
  funext i
  obtain ⟨p, q, rfl⟩ : ∃ (p : Fin 1600000) (q : Fin 64), i = ix2 p q := ⟨i 0, i 1, eq_ix2 i⟩
  rw [val_main_v17_apply, val_main_v14_apply, val_main_v16_apply, val_main_v12_apply, val_main_v9_apply, val_main_v11_apply,
    val_main_v10_apply, val_main_v13_apply, val_main_v15_apply, val_main_cst_1_apply, val_main_cst_2_apply]
  simp only [lidx9, ridx9, bidx9]
  rfl

/-! ## The concatenation -/

/-- Two matrices of 64 columns joined along the columns are the two laid side by side. -/
theorem concat_eq (e g : (⟨S1600000x64, .f32⟩ : BufTy).Contents (Elt Ideal)) :
    concatenate S1600000x128 1 [⟨S1600000x64, e⟩, ⟨S1600000x64, g⟩] concatenates_S1600000x64_S1600000x64_S1600000x128_d1
      = sideBySide (n := 1600000) e g := by
  funext i
  obtain ⟨p, k, rfl⟩ : ∃ (p : Fin 1600000) (k : Fin 128), i = ix2 p k := ⟨i 0, i 1, eq_ix2 i⟩
  show _ = if h : k.val < 64 then e (ix2 p ⟨k.val, h⟩) else g (ix2 p ⟨k.val - 64, _⟩)
  by_cases hk : k.val < 64
  · rw [dif_pos hk]
    exact concatenate_pair_apply_left (1 : Fin S1600000x128.rank) e g _ (ix2 p k) rfl (ix2 p ⟨k.val, hk⟩)
      (fun b => by match b with | ⟨0, _⟩ => rfl | ⟨1, _⟩ => rfl)
  · rw [dif_neg hk]
    refine concatenate_pair_apply_right (1 : Fin S1600000x128.rank) e g _ (ix2 p k) rfl rfl
      (ix2 p ⟨k.val - 64, by have := k.isLt; omega⟩) (fun b hb => ?_) ?_
    · match b with
      | ⟨0, _⟩ => rfl
      | ⟨1, _⟩ => exact absurd rfl hb
    · show k.val - 64 + 64 = k.val
      omega

/-! ## The message stage -/

/-- The reference's messages: the side-by-side features of an edge contracted against the whole weight matrix,
    plus the bias, through the leaky rectifier. -/
theorem msg_eq (x0 : (⟨S100000x64, .f32⟩ : BufTy).Contents (Elt Ideal)) (x1 : (⟨S2x1600000, .i32⟩ : BufTy).Contents (Elt Ideal))
    (x2 : (⟨S1600000x32, .f32⟩ : BufTy).Contents (Elt Ideal)) (x3 : (⟨S64x64, .f32⟩ : BufTy).Contents (Elt Ideal))
    (x4 : (⟨S64, .f32⟩ : BufTy).Contents (Elt Ideal)) (x5 : (⟨S32x64, .f32⟩ : BufTy).Contents (Elt Ideal))
    (x6 : (⟨S64, .f32⟩ : BufTy).Contents (Elt Ideal)) (x7 : (⟨S128x128, .f32⟩ : BufTy).Contents (Elt Ideal))
    (x8 : (⟨S128, .f32⟩ : BufTy).Contents (Elt Ideal)) :
    val_main_v38 (F := Ideal) x0 x1 x2 x3 x4 x5 x6 x7 x8
      = mk2 (msgCatAt (n := 1600000) (sideBySide (dense (n := 1600000) (k := 32) (m := 64) x2 x5 x6)
          (val_main_v28 (F := Ideal) x0 x1 x3 x4)) x7 x8) := by
  funext i
  obtain ⟨p, q, rfl⟩ : ∃ (p : Fin 1600000) (q : Fin 128), i = ix2 p q := ⟨i 0, i 1, eq_ix2 i⟩
  have hcat : val_main_v29 (F := Ideal) x0 x1 x2 x3 x4 x5 x6
      = sideBySide (n := 1600000) (dense (n := 1600000) (k := 32) (m := 64) x2 x5 x6) (val_main_v28 (F := Ideal) x0 x1 x3 x4) := by
    unfold val_main_v29
    rw [concat_eq, edge_eq]
  rw [val_main_v38_apply, val_main_v35_apply, val_main_v37_apply, val_main_v33_apply, val_main_v30_apply, val_main_v32_apply,
    val_main_v31_apply, val_main_v34_apply, val_main_v36_apply, val_main_cst_4_apply, val_main_cst_5_apply, hcat]
  simp only [lidx30, ridx30, bidx30]
  rfl

end Cert.ReferenceIdeal.RefValue

end
-- ==== Proof.Bridge.lean ====
/-
  The two programs compute one function of the nine arguments.

  Both gather the encoded nodes at the same wrapped source indices and scatter-add into the same target rows from
  zeros; both encode nodes and edges by the same dense layers. They differ in one place: the reference contracts the
  128 side-by-side features of an edge against the whole message weight matrix, the kernel contracts the two halves
  of 64 features against the upper and the lower 64 rows of the weights and adds the two results. Splitting the sum
  over 128 indices at 64 joins them (the law of the specification module); a slice of the weight matrix along its
  rows from row 0 (from row 64) is its upper (lower) half.
-/
import proofs.«100788_j47674136986069_2_alg».proof.Proof.KernelValue
import proofs.«100788_j47674136986069_2_alg».proof.Proof.RefValue
import Idealize.ShloMosaic.Lib.ValueLayout

noncomputable section

namespace Cert.Bridge

open Idealize.ShloMosaic Idealize.ShloMosaic.TcCoe Idealize.ShloMosaic.ValueIdx Cert.Gnn
open Cert.ReferenceIdeal Cert.ReferenceIdeal.ReadP Cert.ReferenceIdeal.RefValue

/-- The weight matrix cut along its rows from row 0 is its upper half. -/
theorem upper_eq (w : Mat 128 128) :
    extractStridedSlice Cert.KernelIdeal.S64x128 ![0, 0] w Cert.KernelIdeal.Facts₀.slices_S128x128_S64x128_0_0 = upper w := by
  funext i
  obtain ⟨k, q, rfl⟩ : ∃ (k : Fin 64) (q : Fin 128), i = ix2 k q := ⟨i 0, i 1, eq_ix2 i⟩
  refine (slice2_axis0_eq 0 w _ k q).trans ?_
  show w (ix2 ⟨0 + k.val, _⟩ q) = w (ix2 ⟨k.val, _⟩ q)
  exact congrArg (fun r => w (ix2 r q)) (Fin.ext (Nat.zero_add _))

/-- The weight matrix cut along its rows from row 64 is its lower half. -/
theorem lower_eq (w : Mat 128 128) :
    extractStridedSlice Cert.KernelIdeal.S64x128 ![64, 0] w Cert.KernelIdeal.Facts₀.slices_S128x128_S64x128_64_0 = lower w := by
  funext i
  obtain ⟨k, q, rfl⟩ : ∃ (k : Fin 64) (q : Fin 128), i = ix2 k q := ⟨i 0, i 1, eq_ix2 i⟩
  exact slice2_axis0_eq 64 w _ k q

/-- The reference's gathered node encodings are the kernel program's. -/
theorem gathered_eq (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) :
    val_main_v28 (F := Ideal) x0 x1 x3 x4 = Cert.KernelIdeal.Whole.gathered x0 x3 x4 x1 := by
  unfold val_main_v28
  rw [node_eq]
  rfl

/-- The reference's messages are the kernel program's. -/
theorem messages_eq (x0 : (⟨S100000x64, .f32⟩ : BufTy).Contents (Elt Ideal)) (x1 : (⟨S2x1600000, .i32⟩ : BufTy).Contents (Elt Ideal))
    (x2 : (⟨S1600000x32, .f32⟩ : BufTy).Contents (Elt Ideal)) (x3 : (⟨S64x64, .f32⟩ : BufTy).Contents (Elt Ideal))
    (x4 : (⟨S64, .f32⟩ : BufTy).Contents (Elt Ideal)) (x5 : (⟨S32x64, .f32⟩ : BufTy).Contents (Elt Ideal))
    (x6 : (⟨S64, .f32⟩ : BufTy).Contents (Elt Ideal)) (x7 : (⟨S128x128, .f32⟩ : BufTy).Contents (Elt Ideal))
    (x8 : (⟨S128, .f32⟩ : BufTy).Contents (Elt Ideal)) :
    val_main_v38 (F := Ideal) x0 x1 x2 x3 x4 x5 x6 x7 x8 = Cert.KernelIdeal.Whole.messages x0 x1 x2 x3 x4 x5 x6 x7 x8 := by
  rw [msg_eq, gathered_eq]
  unfold Cert.KernelIdeal.Whole.messages
  rw [upper_eq, lower_eq]
  funext i
  exact msgCatAt_sideBySide _ _ _ _ _ _

/-- THE BRIDGE: the reference's result is the kernel program's result, as functions of the nine arguments. -/
theorem result_eq (x0 : (⟨S100000x64, .f32⟩ : BufTy).Contents (Elt Ideal)) (x1 : (⟨S2x1600000, .i32⟩ : BufTy).Contents (Elt Ideal))
    (x2 : (⟨S1600000x32, .f32⟩ : BufTy).Contents (Elt Ideal)) (x3 : (⟨S64x64, .f32⟩ : BufTy).Contents (Elt Ideal))
    (x4 : (⟨S64, .f32⟩ : BufTy).Contents (Elt Ideal)) (x5 : (⟨S32x64, .f32⟩ : BufTy).Contents (Elt Ideal))
    (x6 : (⟨S64, .f32⟩ : BufTy).Contents (Elt Ideal)) (x7 : (⟨S128x128, .f32⟩ : BufTy).Contents (Elt Ideal))
    (x8 : (⟨S128, .f32⟩ : BufTy).Contents (Elt Ideal)) :
    val_main_v41 (F := Ideal) x0 x1 x2 x3 x4 x5 x6 x7 x8 = Cert.KernelIdeal.Whole.result x0 x1 x2 x3 x4 x5 x6 x7 x8 := by
  unfold val_main_v41
  rw [messages_eq]
  rfl

end Cert.Bridge

end
-- ==== Proof.lean ====
/-
  The certificate of the message-passing layer: a node-encoder kernel and an edge-and-message kernel around a host
  gather and scatter-add, against the plain reference.

  On extended reals a change of float format is the identity, so both programs compute, for every edge `e` with
  source `s(e)` and target `d(e)`,
      msg[e] = leaky (Σ_k leaky(attr[e] · We + be)[k] · Wg[k, ·] + Σ_k leaky(x[s(e)] · Wn + bn)[k] · Wg[64 + k, ·] + bg)
  and add `msg[e]` into row `d(e)` of a zero array. The kernel forms the two sums over 64 indices separately against
  the two halves of `Wg`; the reference forms one sum over 128 indices of the two feature vectors laid side by side.
  A sum over `Fin (64 + 64)` split at 64 joins the two (Proof/Spec.lean); the law is about a commutative monoid, so
  the precondition (finite inputs) is not used by the value claim. The gather and the scatter-add are applied by both
  programs to equal operands with equal index arrays, and are never opened.

  The modules: Spec (the layer's mathematics and the law), NodeValue and MsgValue (each kernel call's output array
  as one function of the arrays it reads: what a grid point writes, and the cover of the array by the row blocks),
  KernelRun (the program's run with the result buffer named) and KernelValue (the host stretches read, and the result
  as a function of the nine arguments), RefValue (the reference's stages read as the same mathematics), Bridge (the
  two results are one function). The idealization pass rewrote nothing, so `preserves` is trivial.
-/
import proofs.«100788_j47674136986069_2_alg».proof.Defs
import proofs.«100788_j47674136986069_2_alg».proof.Proof.Gen.Kernel
import proofs.«100788_j47674136986069_2_alg».proof.Proof.Gen.Kernel.Frame
import proofs.«100788_j47674136986069_2_alg».proof.Proof.Gen.KernelIdeal
import proofs.«100788_j47674136986069_2_alg».proof.Proof.Gen.KernelIdeal.Frame
import proofs.«100788_j47674136986069_2_alg».proof.Proof.Gen.ReferenceIdeal
import proofs.«100788_j47674136986069_2_alg».proof.Proof.Gen.Pre_finite_inputs
import proofs.«100788_j47674136986069_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to its end without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization pass rewrote no operation. -/
theorem preserves : Cert.preserves_Kernel_KernelIdeal := trivial

/-- From memories that agree on the nine arguments both idealized programs run to their ends, with the same result:
    the kernel program's `result` of the arguments, which the reference's composed term equals (`Bridge.result_eq`). -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v41_eq, Cert.Bridge.result_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
